-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S100x256 : Shape := ⟨2, ![100, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_

variable [Facts]

def fn {F : FTy → Type} [FloatOps F] (main_arg0 : FVec F S131072x256 .f32) (main_arg1 : FVec F S100x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S100x256 .f32 := Host.absf main_arg1
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  main_v8
-- ==== Kernel.lean ====
abbrev S131072x256 : Shape := ⟨2, ![131072, 256]⟩
abbrev S100x256 : Shape := ⟨2, ![100, 256]⟩
abbrev S131072x100 : Shape := ⟨2, ![131072, 100]⟩
abbrev S4096x256 : Shape := ⟨2, ![4096, 256]⟩
abbrev S4096x100 : Shape := ⟨2, ![4096, 100]⟩
abbrev S4096 : Shape := ⟨1, ![4096]⟩
abbrev S4096x1 : Shape := ⟨2, ![4096, 1]⟩
abbrev S100 : Shape := ⟨1, ![100]⟩
abbrev S256x100 : Shape := ⟨2, ![256, 100]⟩
abbrev S1x100 : Shape := ⟨2, ![1, 100]⟩

abbrev nBuf : Space → Nat
  | .hbm => 3
  | .vmem => 5
  | .smem => 0
  | _ => 0

abbrev bufTy : (tb : Table) → Fin (tcTables nBuf tb) → BufTy
  | .hbm, ⟨0, _⟩ => ⟨S131072x256, .f32⟩
  | .hbm, ⟨1, _⟩ => ⟨S100x256, .f32⟩
  | .hbm, ⟨2, _⟩ => ⟨S131072x100, .f32⟩
  | .local _ .vmem, ⟨0, _⟩ => ⟨S4096x256, .f32⟩
  | .local _ .vmem, ⟨1, _⟩ => ⟨S4096x256, .f32⟩
  | .local _ .vmem, ⟨2, _⟩ => ⟨S100x256, .f32⟩
  | .local _ .vmem, ⟨3, _⟩ => ⟨S4096x100, .f32⟩
  | .local _ .vmem, ⟨4, _⟩ => ⟨S4096x100, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  inb_S100x256_S100x256_0_0 : ∀ a, (![0, 0] : Fin 2 → Nat) a + S100x256.size a ≤ S100x256.size a
  h_S100x256 : 0 < S100x256.numel
  reduces_S4096x256_S4096 : S4096x256.Reduces [1] S4096
  shapeCasts_S4096_S4096x1 : S4096.ShapeCasts S4096x1
  reduces_S100x256_S100 : S100x256.Reduces [1] S100
  bitsLt_bf16_f32 : FTy.bits .bf16 < FTy.bits .f32
  transposes_S100x256_p1_0_S256x100 : S100x256.Transposes [1, 0] S256x100
  shapeCasts_S100_S1x100 : S100.ShapeCasts S1x100
  broadcasts_S4096x1_S4096x100 : S4096x1.Broadcasts S4096x100
  broadcasts_S1x100_S4096x100 : S1x100.Broadcasts S4096x100
  reduces_S4096x100_S4096 : S4096x100.Reduces [1] S4096
  inb_S4096x100_S4096x100_0_0 : ∀ a, (![0, 0] : Fin 2 → Nat) a + S4096x100.size a ≤ S4096x100.size a
  h_S4096x100 : 0 < S4096x100.numel
  dot_S4096x256_S256x100_S4096x100_1_0_0_1_n_n_wf : DotDims.WF S4096x256 S256x100 S4096x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x256.size a ≤ S100x256.size a
  hwx0_1 : ∀ i : grid0.Coords, EltTy.bits .f32 = 32 ∨ (Rect.block (s := S100x256) S100x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x100.size a ≤ S131072x100.size a
  hwx0_2 : ∀ i : grid0.Coords, EltTy.bits .f32 = 32 ∨ (Rect.block (s := S131072x100) S4096x100.size (cc0_transform_2 i) (hinb0_2 i)).WholeWords (EltTy.packing .f32)

variable [Facts₀]

def dot_S4096x256_S256x100_S4096x100_1_0_0_1_n_n : DotDims S4096x256 S256x100 S4096x100 where
  lhsContracting := [1]
  rhsContracting := [0]
  lhsNonContracting := [0]
  rhsNonContracting := [1]
  lhsBatch := []
  rhsBatch := []
  wf := dot_S4096x256_S256x100_S4096x100_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x256 : Shape := ⟨2, ![131072, 256]⟩
abbrev S100x256 : Shape := ⟨2, ![100, 256]⟩
abbrev S_ : Shape := ⟨0, ![]⟩
abbrev S131072 : Shape := ⟨1, ![131072]⟩
abbrev S131072x1 : Shape := ⟨2, ![131072, 1]⟩
abbrev S100 : Shape := ⟨1, ![100]⟩
abbrev S1x100 : Shape := ⟨2, ![1, 100]⟩
abbrev S131072x100 : Shape := ⟨2, ![131072, 100]⟩
abbrev S256x100 : Shape := ⟨2, ![256, 100]⟩

abbrev nBuf : Space → Nat
  | .hbm => 39
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S100x256, .f32⟩
  | .hbm, ⟨2, _⟩ => ⟨S131072x256, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S100x256, .f32⟩
  | .hbm, ⟨7, _⟩ => ⟨S_, .f32⟩
  | .hbm, ⟨8, _⟩ => ⟨S100, .f32⟩
  | .hbm, ⟨9, _⟩ => ⟨S1x100, .f32⟩
  | .hbm, ⟨10, _⟩ => ⟨S131072x100, .f32⟩
  | .hbm, ⟨11, _⟩ => ⟨S131072x100, .f32⟩
  | .hbm, ⟨12, _⟩ => ⟨S131072x100, .f32⟩
  | .hbm, ⟨13, _⟩ => ⟨S256x100, .f32⟩
  | .hbm, ⟨14, _⟩ => ⟨S131072x100, .f32⟩
  | .hbm, ⟨15, _⟩ => ⟨S_, .f32⟩
  | .hbm, ⟨16, _⟩ => ⟨S131072x100, .f32⟩
  | .hbm, ⟨17, _⟩ => ⟨S131072x100, .f32⟩
  | .hbm, ⟨18, _⟩ => ⟨S131072x100, .f32⟩
  | .hbm, ⟨19, _⟩ => ⟨S_, .f32⟩
  | .hbm, ⟨20, _⟩ => ⟨S131072x100, .f32⟩
  | .hbm, ⟨21, _⟩ => ⟨S131072x100, .f32⟩
  | .hbm, ⟨22, _⟩ => ⟨S_, .f32⟩
  | .hbm, ⟨23, _⟩ => ⟨S131072x100, .f32⟩
  | .hbm, ⟨24, _⟩ => ⟨S131072x100, .f32⟩
  | .hbm, ⟨25, _⟩ => ⟨S_, .f32⟩
  | .hbm, ⟨26, _⟩ => ⟨S131072x100, .f32⟩
  | .hbm, ⟨27, _⟩ => ⟨S131072x100, .f32⟩
  | .hbm, ⟨28, _⟩ => ⟨S_, .f32⟩
  | .hbm, ⟨29, _⟩ => ⟨S131072x100, .f32⟩
  | .hbm, ⟨30, _⟩ => ⟨S131072x100, .f32⟩
  | .hbm, ⟨31, _⟩ => ⟨S_, .f32⟩
  | .hbm, ⟨32, _⟩ => ⟨S131072x100, .f32⟩
  | .hbm, ⟨33, _⟩ => ⟨S131072x100, .f32⟩
  | .hbm, ⟨34, _⟩ => ⟨S_, .f32⟩
  | .hbm, ⟨35, _⟩ => ⟨S131072, .f32⟩
  | .hbm, ⟨36, _⟩ => ⟨S131072x1, .f32⟩
  | .hbm, ⟨37, _⟩ => ⟨S131072x100, .f32⟩
  | .hbm, ⟨38, _⟩ => ⟨S131072x100, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  reducesTo_S100x256_S100_d1 : S100x256.ReducesTo [1] S100
  bcast_S100_S1x100_1 : S100.BroadcastsInDim S1x100 (![1] : Fin 1 → Fin S1x100.rank)
  bcast_S131072x1_S131072x100_0_1 : S131072x1.BroadcastsInDim S131072x100 (![0, 1] : Fin 2 → Fin S131072x100.rank)
  bcast_S1x100_S131072x100_0_1 : S1x100.BroadcastsInDim S131072x100 (![0, 1] : Fin 2 → Fin S131072x100.rank)
  transposes_S100x256_S256x100_1_0 : S100x256.Transposes [1, 0] S256x100
  bcast_S_S131072x100 : S_.BroadcastsInDim S131072x100 (![] : Fin 0 → Fin S131072x100.rank)
  reducesTo_S131072x100_S131072_d1 : S131072x100.ReducesTo [1] S131072
  dot_S131072x256_S256x100_S131072x100_1_0_0_1_n_n_wf : DotDims.WF S131072x256 S256x100 S131072x100 [1] [0] [0] [1] [] []

variable [Facts₀]

def dot_S131072x256_S256x100_S131072x100_1_0_0_1_n_n : DotDims S131072x256 S256x100 S131072x100 where
  lhsContracting := [1]
  rhsContracting := [0]
  lhsNonContracting := [0]
  rhsNonContracting := [1]
  lhsBatch := []
  rhsBatch := []
  wf := dot_S131072x256_S256x100_S131072x100_1_0_0_1_n_n_wf

class Facts : Prop extends Facts₀ where

variable [Facts]
-- ==== Proof.Spec.lean ====
/-
  The function both programs compute, entry by entry, over the extended reals.

  For a point x in R^256 and centres c_0 … c_99 in R^256 the programs form the squared distance through the
  expansion  |x|² + |c_k|² − 2·⟨x, c_k⟩,  clip it below at zero, turn it into the Student-t weight with one degree of
  freedom  1 / (1 + d²/1),  and divide each weight by the sum of the hundred weights of its row.  Nothing below uses a
  law of arithmetic that could fail at an infinity: the two programs spell the SAME tree of operations, and the only
  difference — the reference raises each weight to the power 1 — is the identity on every extended real.
-/
import Idealize.ShloMosaic.PureOps.Ideal
import Idealize.ShloMosaic.PureOps.Ideal.Laws
import Idealize.ShloMosaic.Lib.ValueIdx

noncomputable section

open scoped BigOperators

namespace Cert.SoftAssign

open Idealize.ShloMosaic Idealize.ShloMosaic.ValueIdx

/-- The squared Euclidean norm of a vector of 256 coordinates. -/
def sqNorm (x : Fin 256 → EReal) : EReal := ∑ d : Fin 256, x d * x d

/-- The Student-t weight of a point and a centre: 1 / (1 + max(|x|² + |y|² − 2⟨x, y⟩, 0) / 1), the constants the f32
    words 1.0, 2.0 and 0.0 both programs print. -/
def weight (x y : Fin 256 → EReal) : EReal :=
  Ideal.div (Ideal.ofBits .f32 0x3F800000#32)
    (Ideal.ofBits .f32 0x3F800000#32 +
      Ideal.div
        (max (sqNorm x + sqNorm y - Ideal.ofBits .f32 0x40000000#32 * ∑ d : Fin 256, x d * y d)
          (Ideal.ofBits .f32 0x00000000#32))
        (Ideal.ofBits .f32 0x3F800000#32))

/-- The soft assignment of a point to centre k: its weight divided by the sum of its weights to all hundred centres. -/
def assign (x : Fin 256 → EReal) (c : Fin 100 → Fin 256 → EReal) (k : Fin 100) : EReal :=
  Ideal.div (weight x (c k)) (∑ j : Fin 100, weight x (c j))

/-- The whole result: entry (n, k) is the soft assignment of row n of z to row k of the centres. -/
def G (z : (⟨2, ![131072, 256]⟩ : Shape).Idx → EReal) (c : (⟨2, ![100, 256]⟩ : Shape).Idx → EReal) :
    (⟨2, ![131072, 100]⟩ : Shape).Idx → EReal :=
  fun i => assign (fun d => z (ix2 (i 0) d)) (fun k d => c (ix2 k d)) (i 1)

/-- A sum started from the f32 word of 0.0 is the sum. -/
theorem ofBits_zero_add (s : EReal) : Ideal.ofBits .f32 0x00000000#32 + s = s := by
  rw [Ideal.ofBits_zero_f32, zero_add]

/-- The f32 word of 1.0 is the extended real 1. -/
theorem ofBits_one : Ideal.ofBits .f32 0x3F800000#32 = 1 := by
  simp [Ideal.ofBits, Ideal.ieee, -EReal.coe_mul]; norm_num

/-- Raising to the power 1 is the identity on every extended real: the two infinities are fixed (the exponent is
    positive), and on a real it is the real power x¹ = x. -/
theorem pow_one (x : EReal) : Ideal.pow x 1 = x := by
  induction x using EReal.rec with
  | bot => rfl
  | top => simp [Ideal.pow_top]
  | coe r =>
    rw [← EReal.coe_one, Ideal.pow_coe_coe]
    exact congrArg _ (Real.rpow_one r)

/-- So the reference's power, whose exponent is the f32 word of 1.0, changes nothing. -/
theorem pow_ofBits_one (x : EReal) : Ideal.pow x (Ideal.ofBits .f32 0x3F800000#32) = x := by
  rw [ofBits_one, pow_one]

end Cert.SoftAssign

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KernelRow.lean ====
/-
  One entry of the block the kernel body stores, as the soft assignment of one row of the z block to the centres.

  The body receives a block of 4096 rows of z and all hundred centres.  Entry (p, q) of what it stores depends on row p
  of the block only: the row's squared norm (a lane sum kept as a column and spread along the row), centre q's squared
  norm (a lane sum laid as a row and spread down the column), their inner product (the matrix product with the
  transposed centres, the operands' change of format being the identity), and the sum of the row's hundred weights.
-/
import proofs.«167503_j74938589381104_2_alg».proof.Proof.Gen.KernelIdeal.Skeleton
import proofs.«167503_j74938589381104_2_alg».proof.Proof.Spec
import proofs.«167503_j74938589381104_2_alg».proof.Proof.LibMatmulPlain
import proofs.«167503_j74938589381104_2_alg».proof.Proof.LibColumn
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.SoftAssign

/-- A lane sum over the last axis of an [R, C] array, at row r: the sum of the row's entries. -/
theorem laneSum_apply {R C : ℕ} (v : FVec Ideal ⟨2, ![R, C]⟩ .f32) (h : (⟨2, ![R, C]⟩ : Shape).Reduces [1] ⟨1, ![R]⟩)
    (hφ : FKind.Formats .f32) (hacc : (0x00000000#32 : BitVec 32) = FKind.add.neutral .f32 hφ) (r : Fin R) :
    multiReduction .add [1] ⟨1, ![R]⟩ v 0x00000000#32 h hφ hacc (ix1 r) = ∑ d : Fin C, v (ix2 r d) :=
  (Ideal.multiReduction_add_single v 0x00000000#32 h hφ hacc (ix1 r)).trans
    (Finset.sum_congr rfl fun d _ => congrArg v (funext fun a => Fin.ext (by
      match a with
      | ⟨0, _⟩ => rfl
      | ⟨1, _⟩ => rfl)))

/-- The block of weights (the body's value %25): the Student-t weights of every row of the z block against every centre. -/
def weights (v0 : Vec Ideal S4096x256 .f32) (v1 : Vec Ideal S100x256 .f32) : FVec Ideal S4096x100 .f32 :=
  divf (broadcast S4096x100 (Scalar.ofBits .f32 0x3F800000#32))
    (addf (broadcast S4096x100 (Scalar.ofBits .f32 0x3F800000#32))
      (divf
        (maximumf
          (subf
            (addf
              (broadcastTo S4096x100 (shapeCast S4096x1 (multiReduction .add [1] S4096 (mulf v0 v0) 0x00000000#32 reduces_S4096x256_S4096 (.inl rfl) rfl) shapeCasts_S4096_S4096x1) broadcasts_S4096x1_S4096x100)
              (broadcastTo S4096x100 (shapeCast S1x100 (multiReduction .add [1] S100 (mulf v1 v1) 0x00000000#32 reduces_S100x256_S100 (.inl rfl) rfl) shapeCasts_S100_S1x100) broadcasts_S1x100_S4096x100))
            (mulf (broadcast S4096x100 (Scalar.ofBits .f32 0x40000000#32))
              (matmul dot_S4096x256_S256x100_S4096x100_1_0_0_1_n_n none (truncf .bf16 v0 bitsLt_bf16_f32)
                (transpose S256x100 [1, 0] (truncf .bf16 v1 bitsLt_bf16_f32) transposes_S100x256_p1_0_S256x100)
                (constant S4096x100 .f32 0x00000000#32))))
          (broadcast S4096x100 (Scalar.ofBits .f32 0x00000000#32)))
        (broadcast S4096x100 (Scalar.ofBits .f32 0x3F800000#32))))

/-- The body's stored value is the block of weights, each divided by its row's sum kept as a column. -/
theorem pay_eq (v0 : Vec Ideal S4096x256 .f32) (v1 : Vec Ideal S100x256 .f32) :
    k0_pay1 v0 v1 = divf (weights v0 v1)
      (broadcastTo S4096x100 (shapeCast S4096x1 (multiReduction .add [1] S4096 (weights v0 v1) 0x00000000#32 reduces_S4096x100_S4096 (.inl rfl) rfl) shapeCasts_S4096_S4096x1) broadcasts_S4096x1_S4096x100) := rfl

/-- The squared norm of row p of the z block, as the body spreads it over the block. -/
theorem zNorm_apply (v0 : Vec Ideal S4096x256 .f32) (p : Fin 4096) (q : Fin 100) :
    broadcastTo S4096x100 (shapeCast S4096x1 (multiReduction (F := Ideal) .add [1] S4096 (mulf v0 v0) 0x00000000#32 reduces_S4096x256_S4096 (.inl rfl) rfl) shapeCasts_S4096_S4096x1) broadcasts_S4096x1_S4096x100 (ix2 p q)
      = sqNorm fun d => v0 (ix2 p d) :=
  (Cert.Lib.broadcastTo_a1_ab_apply _ broadcasts_S4096x1_S4096x100 p q).trans
    ((Cert.Lib.shapeCast_a_a1_apply _ shapeCasts_S4096_S4096x1 p 0).trans
      (laneSum_apply (mulf v0 v0) reduces_S4096x256_S4096 (.inl rfl) rfl p))

/-- The squared norm of centre q, as the body spreads it over the block. -/
theorem cNorm_apply (v1 : Vec Ideal S100x256 .f32) (p : Fin 4096) (q : Fin 100) :
    broadcastTo S4096x100 (shapeCast S1x100 (multiReduction (F := Ideal) .add [1] S100 (mulf v1 v1) 0x00000000#32 reduces_S100x256_S100 (.inl rfl) rfl) shapeCasts_S100_S1x100) broadcasts_S1x100_S4096x100 (ix2 p q)
      = sqNorm fun d => v1 (ix2 q d) :=
  (broadcastTo_1b_ab_apply _ broadcasts_S1x100_S4096x100 p q).trans
    ((shapeCast_a_1a_apply _ shapeCasts_S100_S1x100 0 q).trans
      (laneSum_apply (mulf v1 v1) reduces_S100x256_S100 (.inl rfl) rfl q))

/-- The inner product of row p of the z block with centre q: the matrix product with the transposed centres. -/
theorem inner_apply (v0 : Vec Ideal S4096x256 .f32) (v1 : Vec Ideal S100x256 .f32) (p : Fin 4096) (q : Fin 100) :
    matmul (F := Ideal) dot_S4096x256_S256x100_S4096x100_1_0_0_1_n_n none (truncf .bf16 v0 bitsLt_bf16_f32)
        (transpose S256x100 [1, 0] (truncf .bf16 v1 bitsLt_bf16_f32) transposes_S100x256_p1_0_S256x100)
        (constant S4096x100 .f32 0x00000000#32) (ix2 p q)
      = ∑ d : Fin 256, v0 (ix2 p d) * v1 (ix2 q d) :=
  (Cert.Lib.matmul_plain_zero_apply 4096 256 100 none (truncf .bf16 v0 bitsLt_bf16_f32)
      (transpose S256x100 [1, 0] (truncf .bf16 v1 bitsLt_bf16_f32) transposes_S100x256_p1_0_S256x100) p q).trans
    (Finset.sum_congr rfl fun d _ => congrArg (v0 (ix2 p d) * ·)
      ((transpose_ix2_apply (truncf (F := Ideal) .bf16 v1 bitsLt_bf16_f32) transposes_S100x256_p1_0_S256x100 d q).trans
        (truncf_apply (ψ := .bf16) v1 bitsLt_bf16_f32 (ix2 q d))))

/-- Entry (p, q) of the block of weights is the weight of row p of the z block and centre q. -/
theorem weights_apply (v0 : Vec Ideal S4096x256 .f32) (v1 : Vec Ideal S100x256 .f32) (p : Fin 4096) (q : Fin 100) :
    weights v0 v1 (ix2 p q) = weight (fun d => v0 (ix2 p d)) (fun d => v1 (ix2 q d)) := by
  unfold weight
  rw [← zNorm_apply v0 p q, ← cNorm_apply v1 p q, ← inner_apply v0 v1 p q]
  rfl

/-- ENTRY (p, q) OF WHAT THE BODY STORES: the soft assignment of row p of the z block to centre q. -/
theorem pay_apply (v0 : Vec Ideal S4096x256 .f32) (v1 : Vec Ideal S100x256 .f32) (p : Fin 4096) (q : Fin 100) :
    k0_pay1 v0 v1 (ix2 p q) = assign (fun d => v0 (ix2 p d)) (fun k d => v1 (ix2 k d)) q := by
  rw [pay_eq]
  unfold assign
  rw [← weights_apply v0 v1 p q]
  refine congrArg (Ideal.div (weights v0 v1 (ix2 p q))) ?_
  refine (Cert.Lib.broadcastTo_a1_ab_apply _ broadcasts_S4096x1_S4096x100 p q).trans
    ((Cert.Lib.shapeCast_a_a1_apply _ shapeCasts_S4096_S4096x1 p 0).trans
      ((laneSum_apply (weights v0 v1) reduces_S4096x100_S4096 (.inl rfl) rfl p).trans
        (Finset.sum_congr rfl fun j _ => weights_apply v0 v1 p j)))

end Cert.KernelIdeal.Row

end
-- ==== Proof.KernelArray.lean ====
/-
  From the blocks the grid points write back to the whole result array.

  Point t of the 32 stages rows 4096·t … 4096·t + 4095 of z and all hundred centres, and writes back rows
  4096·t … 4096·t + 4095 of the result.  An entry of what it writes depends on its own row of z only, so block t of the
  result is block t of the soft assignment of the WHOLE z; the 32 blocks cover every row (row r lies in block r / 4096),
  so the result array is the soft assignment.
-/
import proofs.«167503_j74938589381104_2_alg».proof.Proof.Gen.KernelIdeal.Value
import proofs.«167503_j74938589381104_2_alg».proof.Proof.KernelRow
import Idealize.ShloMosaic.Lib.Pipeline.Value

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.SoftAssign
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The index maps over the 32 points: the z window and the result window move down one block of rows per point, the
    centres stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a stored block against the soft assignment of whole arrays: if the block's row p is row n of z and its
    centres are the centres, entry (p, q) of the body's stored value is entry (n, q) of the soft assignment. -/
theorem block_entry (z : (⟨2, ![131072, 256]⟩ : Shape).Idx → EReal) (cc : (⟨2, ![100, 256]⟩ : Shape).Idx → EReal)
    (v0 : Vec Ideal S4096x256 .f32) (v1 : Vec Ideal S100x256 .f32) (p : Fin 4096) (q : Fin 100) (n : Fin 131072)
    (hv0 : ∀ d : Fin 256, v0 (ix2 p d) = z (ix2 n d)) (hv1 : ∀ (k : Fin 100) (d : Fin 256), v1 (ix2 k d) = cc (ix2 k d)) :
    k0_pay1 v0 v1 (ix2 p q) = G z cc (ix2 n q) := by
  rw [Row.pay_apply]
  unfold G
  exact congrArg₂ (fun a b => assign a b q) (funext hv0) (funext fun k => funext (hv1 k))

/-- The z window's block at point t is rows 4096·t … of z. -/
theorem zblk_apply (c : Dev nD) (t : Fin cfg0.N) (x : S4096x256.Idx) (k : S131072x256.Idx)
    (hk0 : (k 0).val = 4096 * t.val + (x 0).val) (hk1 : (k 1).val = (x 1).val) :
    (iblk m c 0 t : Vec Ideal S4096x256 .f32) x = (m ((c : Thread nD τ).loc main_arg0) : S131072x256.Idx → Elt Ideal .f32) k := by
  obtain ⟨e0, e1, -, -, -, -⟩ := idx_facts t
  unfold iblk
  rw [View.read_apply]
  show V m c main_arg0 _ = m (c.tc.loc main_arg0) _
  unfold V
  congr 1
  funext a
  apply Fin.ext
  match a with
  | ⟨0, _⟩ => show win0_0.index t 0 * 4096 + 1 * (x 0).val = (k 0).val; rw [e0, hk0]; omega
  | ⟨1, _⟩ => show win0_0.index t 1 * 256 + 1 * (x 1).val = (k 1).val; rw [e1, hk1]; omega

/-- The centres' window's block at every point is the whole array of centres. -/
theorem cblk_apply (c : Dev nD) (t : Fin cfg0.N) (x : S100x256.Idx) :
    (iblk m c 1 t : Vec Ideal S100x256 .f32) x = (m ((c : Thread nD τ).loc main_arg1) : S100x256.Idx → Elt Ideal .f32) x := by
  obtain ⟨-, -, e2, e3, -, -⟩ := idx_facts t
  unfold iblk
  rw [View.read_apply]
  show V m c main_arg1 _ = m (c.tc.loc main_arg1) _
  unfold V
  congr 1
  funext a
  apply Fin.ext
  match a with
  | ⟨0, _⟩ => show win0_1.index t 0 * 100 + 1 * (x 0).val = (x 0).val; rw [e2]; omega
  | ⟨1, _⟩ => show win0_1.index t 1 * 256 + 1 * (x 1).val = (x 1).val; rw [e3]; omega

/-- WHAT POINT t WRITES BACK is block t of the soft assignment of the argument arrays. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Value.flushed2]
  unfold out0_2
  rw [View.canon_unit_zero zeros]
  simp only [View.ld_unit_zero (S := S4096x256) zeros, View.ld_unit_zero (S := S100x256) zeros]
  obtain ⟨-, -, -, -, e4, e5⟩ := idx_facts t
  refine funext fun (j : S4096x100.Idx) => ?_
  obtain ⟨p, q, rfl⟩ : ∃ (p : Fin 4096) (q : Fin 100), j = ix2 p q := ⟨j 0, j 1, eq_ix2 j⟩
  rw [View.read_apply]
  have hN : cfg0.N = 32 := N_0
  have ht : t.val < 32 := lt_of_lt_of_eq t.isLt hN
  have hn : 4096 * t.val + p.val < 131072 := by have := p.isLt; omega
  have he : ((cfg0.win 2).blk t).view.emb (ix2 p q) = ix2 (⟨4096 * t.val + p.val, hn⟩ : Fin 131072) q := by
    funext a
    apply Fin.ext
    match a with
    | ⟨0, _⟩ => show win0_2.index t 0 * 4096 + 1 * p.val = 4096 * t.val + p.val; rw [e4]; omega
    | ⟨1, _⟩ => show win0_2.index t 1 * 100 + 1 * q.val = q.val; rw [e5]; omega
  show k0_pay1 (iblk m c 0 t) (iblk m c 1 t) (ix2 p q) = G _ _ (((cfg0.win 2).blk t).view.emb (ix2 p q))
  rw [he]
  refine block_entry _ _ _ _ p q _ (fun d => ?_) (fun k d => ?_)
  · exact zblk_apply m c t _ _ rfl rfl
  · exact cblk_apply m c t _

/-- An index of the result is in point t's block iff each coordinate is in the block's range on its axis. -/
theorem mem_blk (t : Fin cfg0.N) (i : S131072x100.Idx) :
    i ∈ ((cfg0.win 2).blk t).view.set ↔ ∀ a : Fin 2, win0_2.index t a * S4096x100.size a ≤ (i a).val ∧ (i a).val < win0_2.index t a * S4096x100.size a + S4096x100.size a := by
  show i ∈ ((View.whole main_v0).slice (win0_2.rect t)).set ↔ _
  rw [View.set_slice_whole, Rect.mem_set_unit]
  exact Iff.rfl

/-- Every entry of the result lies in some point's block: row r in block r / 4096. -/
theorem cover (i : S131072x100.Idx) : ∃ t : Fin cfg0.N, (cfg0.win 2).flush t = true ∧ i ∈ ((cfg0.win 2).blk t).view.set := by
  have hi0 : (i 0).val < 131072 := (i 0).isLt
  have hi1 : (i 1).val < 100 := (i 1).isLt
  have hN : cfg0.N = 32 := N_0
  refine ⟨⟨(i 0).val / 4096, by rw [hN]; omega⟩, flush0_2 _, ?_⟩
  rw [mem_blk]
  obtain ⟨-, -, -, -, e4, e5⟩ := idx_facts ⟨(i 0).val / 4096, by rw [hN]; omega⟩
  intro a
  match a with
  | ⟨0, _⟩ =>
    show win0_2.index _ (0 : Fin 2) * 4096 ≤ (i 0).val ∧ (i 0).val < win0_2.index _ (0 : Fin 2) * 4096 + 4096
    rw [e4]; show (i 0).val / 4096 * 4096 ≤ (i 0).val ∧ (i 0).val < (i 0).val / 4096 * 4096 + 4096; omega
  | ⟨1, _⟩ =>
    show win0_2.index _ (1 : Fin 2) * 100 ≤ (i 1).val ∧ (i 1).val < win0_2.index _ (1 : Fin 2) * 100 + 100
    rw [e5]; omega

/-- THE RESULT ARRAY after the run is the soft assignment of the argument arrays. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

/-- The kernel's run, read: the result at the soft assignment of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefIsSpec.lean ====
/-
  The reference, read entry by entry, is the soft assignment.

  The host program forms the same tree of operations on the whole arrays: row sums of squares kept as a column and as a
  row and spread over [131072, 100], the product with the transposed centres, the clip at zero, the Student-t weight,
  the weight raised to the power 1 (the identity), the row sums of the weights, and the quotient.  Each host sum starts
  from the f32 zero, which adds nothing.
-/
import proofs.«167503_j74938589381104_2_alg».proof.Proof.Gen.ReferenceIdeal.Read
import proofs.«167503_j74938589381104_2_alg».proof.Proof.Spec

noncomputable section

open scoped BigOperators

namespace Cert.ReferenceIdeal.RefValue

open Cert.ReferenceIdeal Cert.ReferenceIdeal.Read Idealize.ShloMosaic Idealize.ShloMosaic.ValueIdx Cert.SoftAssign

/-- Entry (n, k) of the reference's array of weights (after its power 1) is the weight of row n of z and centre k. -/
theorem weights_apply (x0 : (⟨S131072x256, .f32⟩ : BufTy).Contents (Elt Ideal)) (x1 : (⟨S100x256, .f32⟩ : BufTy).Contents (Elt Ideal))
    (n : Fin 131072) (k : Fin 100) :
    val_main_v23 (F := Ideal) x0 x1 (ix2 n k) = weight (fun d => x0 (ix2 n d)) (fun d => x1 (ix2 k d)) := by
  have e1 : ∀ d : Fin 256, idx_main_v1 (idx_main_v2 (idx_main_v6 (ix2 n k))) d = ix2 n d := fun d =>
    funext fun a => Fin.ext (by match a with | ⟨0, _⟩ => rfl | ⟨1, _⟩ => rfl)
  have e4 : ∀ d : Fin 256, idx_main_v4 (idx_main_v5 (idx_main_v7 (ix2 n k))) d = ix2 k d := fun d =>
    funext fun a => Fin.ext (by match a with | ⟨0, _⟩ => rfl | ⟨1, _⟩ => rfl)
  have el : ∀ d : Fin 256, lidx_main_v10 (ix2 n k) d = ix2 n d := fun d =>
    funext fun a => Fin.ext (by match a with | ⟨0, _⟩ => rfl | ⟨1, _⟩ => rfl)
  have er : ∀ d : Fin 256, idx_main_v9 (ridx_main_v10 (ix2 n k) d) = ix2 k d := fun d =>
    funext fun a => Fin.ext (by match a with | ⟨0, _⟩ => rfl | ⟨1, _⟩ => rfl)
  rw [val_main_v23_apply, val_main_v22_apply, val_main_cst_6_apply, val_main_v21_apply, val_main_v20_apply,
    val_main_cst_5_apply, val_main_v19_apply, val_main_v18_apply, val_main_cst_4_apply, val_main_v17_apply,
    val_main_v16_apply, val_main_cst_3_apply, val_main_v15_apply, val_main_v14_apply, val_main_cst_2_apply,
    val_main_v13_apply, val_main_v12_apply, val_main_v11_apply, val_main_cst_1_apply, val_main_v10_apply,
    val_main_v8_apply, val_main_v7_apply, val_main_v5_apply, val_main_v4_apply, val_main_cst_0_apply,
    val_main_v6_apply, val_main_v2_apply, val_main_v1_apply, val_main_cst_apply]
  simp only [val_main_v0_apply, val_main_v3_apply, val_main_v9_apply, e1, e4, el, er]
  refine (pow_ofBits_one _).trans ?_
  unfold weight sqNorm
  show Ideal.div _ (_ + Ideal.div (max (((Ideal.ofBits .f32 0x00000000#32 + _) + (Ideal.ofBits .f32 0x00000000#32 + _)) - _) _) _) = _
  rw [ofBits_zero_add, ofBits_zero_add]
  rfl

/-- THE REFERENCE'S RESULT is the soft assignment, entry by entry. -/
theorem result_eq (x0 : (⟨S131072x256, .f32⟩ : BufTy).Contents (Elt Ideal)) (x1 : (⟨S100x256, .f32⟩ : BufTy).Contents (Elt Ideal)) :
    val_main_v27 (F := Ideal) x0 x1 = G x0 x1 := by
  funext i
  obtain ⟨n, k, rfl⟩ : ∃ (n : Fin 131072) (k : Fin 100), i = ix2 n k := ⟨i 0, i 1, eq_ix2 i⟩
  have e24 : ∀ j : Fin 100, idx_main_v24 (idx_main_v25 (idx_main_v26 (ix2 n k))) j = ix2 n j := fun j =>
    funext fun a => Fin.ext (by match a with | ⟨0, _⟩ => rfl | ⟨1, _⟩ => rfl)
  rw [val_main_v27_apply, val_main_v26_apply, val_main_v25_apply, val_main_v24_apply, val_main_cst_7_apply]
  simp only [e24, weights_apply]
  show Ideal.div _ (Ideal.ofBits .f32 0x00000000#32 + _) = _
  rw [ofBits_zero_add]
  rfl

end Cert.ReferenceIdeal.RefValue

end
-- ==== Proof.lean ====
/-
  The certificate of the soft-assignment kernel against its jnp reference.

  The kernel tiles the 131072 rows of z into 32 blocks of 4096 rows; on each block it forms, for every row and each of the
  hundred centres, the squared distance |x|² + |c|² − 2⟨x, c⟩ clipped at zero, the Student-t weight 1 / (1 + d²/1), and
  the weight divided by the row's sum of weights.  The reference does the same on the whole arrays and raises each weight
  to the power 1 before normalising.  Over the extended reals a change of float format is the identity, a matrix product
  into a zero accumulator and a host product are one sum, a lane sum and a host sum from zero are one sum, and x¹ = x for
  every x, infinite ones included; so both results are ONE function of the arguments, the soft assignment `G` of
  Proof/Spec.lean, entry by entry.  No law that could fail at an infinity is used, and the finiteness of the inputs is
  never opened.

  Proof/KernelRow.lean reads one entry of the block the body stores; Proof/KernelArray.lean shows that the blocks written
  back are the blocks of `G` and cover the result; Proof/RefIsSpec.lean reads the reference's result entry by entry.
  The three frames are the programs' runs with the results dropped; the idealization rewrote nothing, so `preserves` is
  trivial.
-/
import proofs.«167503_j74938589381104_2_alg».proof.Defs
import proofs.«167503_j74938589381104_2_alg».proof.Proof.Gen.Kernel
import proofs.«167503_j74938589381104_2_alg».proof.Proof.Gen.Kernel.Skeleton
import proofs.«167503_j74938589381104_2_alg».proof.Proof.Gen.Kernel.Launch
import proofs.«167503_j74938589381104_2_alg».proof.Proof.Gen.Kernel.Points
import proofs.«167503_j74938589381104_2_alg».proof.Proof.Gen.Kernel.Frame
import proofs.«167503_j74938589381104_2_alg».proof.Proof.Gen.KernelIdeal
import proofs.«167503_j74938589381104_2_alg».proof.Proof.Gen.KernelIdeal.Skeleton
import proofs.«167503_j74938589381104_2_alg».proof.Proof.Gen.KernelIdeal.Launch
import proofs.«167503_j74938589381104_2_alg».proof.Proof.Gen.KernelIdeal.Points
import proofs.«167503_j74938589381104_2_alg».proof.Proof.Gen.KernelIdeal.Frame
import proofs.«167503_j74938589381104_2_alg».proof.Proof.Gen.ReferenceIdeal
import proofs.«167503_j74938589381104_2_alg».proof.Proof.Gen.Pre_finite_inputs
import proofs.«167503_j74938589381104_2_alg».proof.Proof.Gen.KernelIdeal.Value
import proofs.«167503_j74938589381104_2_alg».proof.Proof.Gen.ReferenceIdeal.Run
import proofs.«167503_j74938589381104_2_alg».proof.Proof.Gen.ReferenceIdeal.Read
import proofs.«167503_j74938589381104_2_alg».proof.Proof.Spec
import proofs.«167503_j74938589381104_2_alg».proof.Proof.KernelArray
import proofs.«167503_j74938589381104_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a list of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the soft assignment of its arguments (the blocks written
    back cover it) and the reference's at the same function of its own (read entry by entry): equal results. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
